-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute.  With x the 8192 × 4096 array of rows, and w, p two 4096 × 4096 matrices,
  entry (r, c) of the result is the row r of x against column c of the SUM matrix w + p:

      ∑ₖ x[r, k] · (w[k, c] + p[k, c])          (k over the 4096 contraction positions)

  on the extended reals.  The sum of the two matrices is taken entry by entry BEFORE the product, on both sides, so
  no distributive law is needed anywhere and the inputs' finiteness is never used.
-/
import Idealize.ShloMosaic.PureOps.Ideal
import Idealize.ShloMosaic.Lib.ValueIdx

noncomputable section

namespace Cert.Rotation

open Idealize.ShloMosaic Idealize.ShloMosaic.ValueIdx
open scoped BigOperators

/-- One term of entry (r, c): contraction position k. -/
def term (x : (⟨2, ![8192, 4096]⟩ : Shape).Idx → EReal) (w p : (⟨2, ![4096, 4096]⟩ : Shape).Idx → EReal)
    (r : Fin 8192) (c : Fin 4096) (k : Fin 4096) : EReal :=
  x (ix2 r k) * (w (ix2 k c) + p (ix2 k c))

/-- Entry (r, c): row r of `x` against column c of `w + p`. -/
def entry (x : (⟨2, ![8192, 4096]⟩ : Shape).Idx → EReal) (w p : (⟨2, ![4096, 4096]⟩ : Shape).Idx → EReal)
    (r : Fin 8192) (c : Fin 4096) : EReal :=
  ∑ k : Fin 4096, term x w p r c k

/-- A product of two extended reals is that term once its factors are known to be the row's entry and the summed
    matrix's entry. -/
theorem term_of_factors (x : (⟨2, ![8192, 4096]⟩ : Shape).Idx → EReal) (w p : (⟨2, ![4096, 4096]⟩ : Shape).Idx → EReal)
    (r : Fin 8192) (c : Fin 4096) (k : Fin 4096) (a b : EReal)
    (ha : a = x (ix2 r k)) (hb : b = w (ix2 k c) + p (ix2 k c)) : a * b = term x w p r c k := by
  subst ha hb; rfl

/-- The whole result array, index by index. -/
def rotated (x : (⟨2, ![8192, 4096]⟩ : Shape).Idx → EReal) (w p : (⟨2, ![4096, 4096]⟩ : Shape).Idx → EReal) :
    (⟨2, ![8192, 4096]⟩ : Shape).Idx → EReal :=
  fun i => entry x w p (i 0) (i 1)

theorem rotated_ix2 (x : (⟨2, ![8192, 4096]⟩ : Shape).Idx → EReal) (w p : (⟨2, ![4096, 4096]⟩ : Shape).Idx → EReal)
    (r : Fin 8192) (c : Fin 4096) : rotated x w p (ix2 r c) = entry x w p r c := rfl

end Cert.Rotation

end
-- ==== Proof.Payload.lean ====
/-
  What the kernel body stores at one grid point.  It loads a block a of 1024 rows (1024 × 4096) and a block b of 512
  columns of the already-summed matrix (4096 × 512) and stores their matrix product, accumulated into zero.  Narrowing
  a to the 16-bit format is the identity on the extended reals and the shape cast of b is to b's own shape, so entry
  (p, q) of what is stored is

      ∑ₖ a[p, k] · b[k, q]          (k over the 4096 contraction positions).
-/
import proofs.«166095_j49727131353410_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Rotation.Body

open Idealize.ShloMosaic Idealize.ShloMosaic.ValueIdx Cert.KernelIdeal Cert.KernelIdeal.Gen
open scoped BigOperators

/-! The product's operand indices at output index j and contraction index s: (j₀, s) on the left, (s, j₁) on the right. -/

theorem lhs_row (j : S1024x512.Idx) (s : dot_S1024x4096_S4096x512_S1024x512_1_0_0_1_n_n.contr.Idx) :
    (dot_S1024x4096_S4096x512_S1024x512_1_0_0_1_n_n.lhsIdx j s 0).val = (j 0).val := by
  unfold DotDims.lhsIdx
  rw [dif_neg (show ¬(0 : Fin S1024x4096.rank) ∈ dot_S1024x4096_S4096x512_S1024x512_1_0_0_1_n_n.lhsBatch by decide),
    dif_pos (show (0 : Fin S1024x4096.rank) ∈ dot_S1024x4096_S4096x512_S1024x512_1_0_0_1_n_n.lhsNonContracting by decide)]
  rfl

theorem lhs_col (j : S1024x512.Idx) (s : dot_S1024x4096_S4096x512_S1024x512_1_0_0_1_n_n.contr.Idx) :
    (dot_S1024x4096_S4096x512_S1024x512_1_0_0_1_n_n.lhsIdx j s 1).val = (s ⟨0, by decide⟩).val :=
  dot_S1024x4096_S4096x512_S1024x512_1_0_0_1_n_n.lhsIdx_val_of_single rfl j s

theorem rhs_row (j : S1024x512.Idx) (s : dot_S1024x4096_S4096x512_S1024x512_1_0_0_1_n_n.contr.Idx) :
    (dot_S1024x4096_S4096x512_S1024x512_1_0_0_1_n_n.rhsIdx j s 0).val = (s ⟨0, by decide⟩).val :=
  dot_S1024x4096_S4096x512_S1024x512_1_0_0_1_n_n.rhsIdx_val_of_single rfl j s

theorem rhs_col (j : S1024x512.Idx) (s : dot_S1024x4096_S4096x512_S1024x512_1_0_0_1_n_n.contr.Idx) :
    (dot_S1024x4096_S4096x512_S1024x512_1_0_0_1_n_n.rhsIdx j s 1).val = (j 1).val := by
  unfold DotDims.rhsIdx
  rw [dif_neg (show ¬(1 : Fin S4096x512.rank) ∈ dot_S1024x4096_S4096x512_S1024x512_1_0_0_1_n_n.rhsBatch by decide),
    dif_pos (show (1 : Fin S4096x512.rank) ∈ dot_S1024x4096_S4096x512_S1024x512_1_0_0_1_n_n.rhsNonContracting by decide)]
  rfl

/-- The matrix product of a block of rows with a block of columns, into zero, at entry (p, q). -/
theorem product_apply (a : FVec Ideal S1024x4096 .bf16) (b : FVec Ideal S4096x512 .bf16) (p : Fin 1024) (q : Fin 512) :
    FloatOps.matmul dot_S1024x4096_S4096x512_S1024x512_1_0_0_1_n_n none a b (constant (F := Ideal) S1024x512 .f32 0x00000000#32) (ix2 p q)
      = ∑ k : Fin 4096, a (ix2 p k) * b (ix2 k q) := by
  refine (Ideal.matmul_constant_zero_apply dot_S1024x4096_S4096x512_S1024x512_1_0_0_1_n_n none a b (ix2 p q)).trans ?_
  rw [← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k :=
    funext fun d => Fin.ext (by
      match d with
      | ⟨0, _⟩ => exact lhs_row _ _
      | ⟨1, _⟩ => exact (lhs_col _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q :=
    funext fun d => Fin.ext (by
      match d with
      | ⟨0, _⟩ => exact (rhs_row _ _).trans hk
      | ⟨1, _⟩ => exact rhs_col _ _)
  rw [el, er]

/-- The body's stored value at entry (p, q), from the two blocks it loads. -/
theorem stored_apply (a : Vec Ideal S1024x4096 .f32) (b : Vec Ideal S4096x512 .bf16) (p : Fin 1024) (q : Fin 512) :
    k0_pay1 (F := Ideal) a b (ix2 p q) = ∑ k : Fin 4096, a (ix2 p k) * b (ix2 k q) := by
  unfold k0_pay1
  have hb : shapeCast S4096x512 b shapeCasts_S4096x512_S4096x512 = b := shapeCast_self b shapeCasts_S4096x512_S4096x512
  show FloatOps.matmul dot_S1024x4096_S4096x512_S1024x512_1_0_0_1_n_n none (truncf .bf16 a bitsLt_bf16_f32)
      (shapeCast S4096x512 b shapeCasts_S4096x512_S4096x512) (constant (F := Ideal) S1024x512 .f32 0x00000000#32) (ix2 p q) = _
  rw [hb]
  exact product_apply (truncf .bf16 a bitsLt_bf16_f32) b p q

end Cert.Rotation.Body

end
-- ==== Proof.Cover.lean ====
/-
  The grid's arithmetic.  The grid has 8 × 8 points; point (bi, bj) reads rows bi·1024 … bi·1024 + 1023 of x (all 4096
  columns), columns bj·512 … bj·512 + 511 of the summed matrix (all 4096 rows), and writes the 1024 × 512 block of the
  result at block index (bi, bj).  So an entry (r, c) of the result lies in the block of the point (r / 1024, c / 512),
  and the 64 blocks cover the 8192 × 4096 array.
-/
import proofs.«166095_j49727131353410_2_alg».proof.Proof.Gen.KernelIdeal.Value

noncomputable section

namespace Cert.Rotation.Grid

open Cert.KernelIdeal Cert.KernelIdeal.Gen Idealize.ShloMosaic Idealize.ShloMosaic.TcCoe Idealize.SL.Sem

/-- Zero offsets, however spelt. -/
theorem zero_offsets : (![0, 0] : Fin 2 → Nat) = fun _ => 0 := funext fun a => by fin_cases a <;> rfl

/-- The three index maps over the 64 points: the rows' block follows the output's row block and spans every column;
    the summed matrix's block spans every row and follows the output's column block; the output's block indices are
    below 8 on both axes. -/
theorem index_maps : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 7 :=
  (by decide +kernel : ∀ t : Fin grid0.N, _)

/-- Every block index (bi, bj) with bi, bj < 8 is some point's. -/
theorem every_block : ∀ (bi : Fin 8) (bj : Fin 8), ∃ t : Fin cfg0.N, win0_2.index t = ![bi.val, bj.val] :=
  (by decide +kernel : ∀ (bi : Fin 8) (bj : Fin 8), ∃ t : Fin grid0.N, win0_2.index t = ![bi.val, bj.val])

/-- An entry of the result is in point `t`'s block iff each coordinate is in the block's range on its axis. -/
theorem mem_block (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v2).slice (win0_2.rect t)).set ↔ _
  rw [View.set_slice_whole, Rect.mem_set_unit]
  exact Iff.rfl

/-- Every entry (r, c) of the result is in the block of a point that writes back: the point at (r / 1024, c / 512). -/
theorem covered (i : S8192x4096.Idx) :
    ∃ t : Fin cfg0.N, (cfg0.win 2).flush t = true ∧ i ∈ ((cfg0.win 2).blk t).view.set := by
  have hr : (i 0).val < 8192 := (i 0).isLt
  have hc : (i 1).val < 4096 := (i 1).isLt
  obtain ⟨t, ht⟩ := every_block ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

end Cert.Rotation.Grid

end
-- ==== Proof.KernelValue.lean ====
/-
  The kernel's result array is the specification.

  Before the grid runs, the host has written the entrywise sum w + p (narrowed to the 16-bit format, which is the identity
  on the extended reals) into the matrix the second window stages.  At a point with output block (bi, bj) the body's two
  loaded blocks are rows bi·1024 … of x and columns bj·512 … of that sum, so entry (p, q) of the stored product is
  ∑ₖ x[bi·1024 + p, k] · (w + p)[k, bj·512 + q]: the specification's entry at the array index the block puts (p, q) at.
  The 64 blocks cover the array, so the array after the run is the specification everywhere.
-/
import proofs.«166095_j49727131353410_2_alg».proof.Proof.Gen.KernelIdeal.Value
import proofs.«166095_j49727131353410_2_alg».proof.Proof.Spec
import proofs.«166095_j49727131353410_2_alg».proof.Proof.Payload
import proofs.«166095_j49727131353410_2_alg».proof.Proof.Cover
import Idealize.ShloMosaic.Lib.StableHlo.Run

noncomputable section

namespace Cert.Rotation.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The matrix the second window stages, as the grid finds it: the entrywise sum of the two matrix arguments. -/
theorem summed (c : Dev nD) :
    (V m c main_v1 : S4096x4096.Idx → EReal)
      = addf (F := Ideal) (s := S4096x4096) (φ := .f32) (m ((c : Thread nD τ).loc main_arg1)) (m ((c : Thread nD τ).loc main_arg2)) := by
  dsimp only [Gen.V, Gen.hostOps0]; after_results; rfl

/-- WHAT POINT `t` WRITES BACK is block `t` of the specification of the three argument arrays. -/
theorem flushed_eq (c : Dev nD) (t : Fin cfg0.N) :
    (dats m 0 c).flushed 2 t = ((cfg0.win 2).blk t).view.read (Elt Ideal)
      (Cert.Rotation.rotated (m ((c : Thread nD τ).loc main_arg0)) (m ((c : Thread nD τ).loc main_arg1)) (m ((c : Thread nD τ).loc main_arg2))) := by
  rw [Cert.KernelIdeal.Value.flushed2]
  unfold out0_2
  rw [View.canon_unit_zero Grid.zero_offsets]
  simp only [View.ld_unit_zero (S := S1024x4096) Grid.zero_offsets, View.ld_unit_zero (S := S4096x512) Grid.zero_offsets]
  obtain ⟨e0, e1, e2, e3, e4, e5⟩ := Grid.index_maps t
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q)
    = Cert.Rotation.rotated (m ((c : Thread nD τ).loc main_arg0)) (m ((c : Thread nD τ).loc main_arg1)) (m ((c : Thread nD τ).loc main_arg2)) (((cfg0.win 2).blk t).view.emb (ix2 p q))
  refine (Body.stored_apply (iblk m c 0 t) (iblk m c 1 t) p q).trans ?_
  show _ = ∑ k : Fin 4096, Cert.Rotation.term (m ((c : Thread nD τ).loc main_arg0)) (m ((c : Thread nD τ).loc main_arg1)) (m ((c : Thread nD τ).loc main_arg2)) ((((cfg0.win 2).blk t).view.emb (ix2 p q)) 0) ((((cfg0.win 2).blk t).view.emb (ix2 p q)) 1) k
  refine Finset.sum_congr rfl fun k _ => ?_
  -- the rows' block at (p, k) is x at (the output entry's row, k)
  have hx : iblk m c 0 t (ix2 p k) = ((m ((c : Thread nD τ).loc main_arg0)) : S8192x4096.Idx → EReal) (ix2 ((((cfg0.win 2).blk t).view.emb (ix2 p q)) 0) k) := by
    show V m c main_arg0 (((cfg0.win 0).blk t).view.emb (ix2 p k)) = _
    rw [V_main_arg0]
    refine congrArg _ (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 4096 + 1 * k.val = k.val
      omega
  -- the summed matrix's block at (k, q) is w + p at (k, the output entry's column)
  have hw : ((cfg0.win 1).blk t).view.emb (ix2 k q) = (ix2 k ((((cfg0.win 2).blk t).view.emb (ix2 p q)) 1) : S4096x4096.Idx) := by
    refine funext fun a => Fin.ext ?_
    match a with
    | ⟨0, _⟩ =>
      show win0_1.index t (0 : Fin 2) * 4096 + 1 * k.val = k.val
      omega
    | ⟨1, _⟩ =>
      show win0_1.index t (1 : Fin 2) * 512 + 1 * q.val = win0_2.index t (1 : Fin 2) * 512 + 1 * q.val
      omega
  have hs : iblk m c 1 t (ix2 k q)
      = addf (F := Ideal) (s := S4096x4096) (φ := .f32) (m ((c : Thread nD τ).loc main_arg1)) (m ((c : Thread nD τ).loc main_arg2)) (ix2 k ((((cfg0.win 2).blk t).view.emb (ix2 p q)) 1)) := by
    show (V m c main_v1 : S4096x4096.Idx → EReal) (((cfg0.win 1).blk t).view.emb (ix2 k q)) = _
    rw [hw, summed m c]
  exact Cert.Rotation.term_of_factors (m ((c : Thread nD τ).loc main_arg0)) (m ((c : Thread nD τ).loc main_arg1)) (m ((c : Thread nD τ).loc main_arg2)) ((((cfg0.win 2).blk t).view.emb (ix2 p q)) 0) ((((cfg0.win 2).blk t).view.emb (ix2 p q)) 1) k _ _ hx hs

/-- THE ARRAY after the run is the specification of the three argument arrays. -/
theorem final (c : Dev nD) :
    (dats m 0 c).arrAt 2 cfg0.N = Cert.Rotation.rotated (m ((c : Thread nD τ).loc main_arg0)) (m ((c : Thread nD τ).loc main_arg1)) (m ((c : Thread nD τ).loc main_arg2)) :=
  (dats m 0 c).arrAt_eq_of_cover 2 _ (fun t _ => flushed_eq m c t) Grid.covered

/-- The kernel's run: it ends with the result array at the specification and the three arguments unchanged. -/
theorem run : θ_run defs (onTc (τ := τ) (main (F := Ideal))) ⟨m, fun _ => 0, ρ⟩ fun r => ∀ c : Dev nD,
      r.2.mem ((c : Thread nD τ).loc main_v2) = Cert.Rotation.rotated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rotation.Kernel

end
-- ==== Proof.RefValue.lean ====
/-
  The reference's result is the specification.  Its two host operations are the entrywise sum w + p and then the
  matrix product of x with that sum; read at an index (r, c) the product is the sum over the contraction position k
  of x[r, k] times (w + p)[k, c], which is the specification's entry (r, c) term by term.
-/
import proofs.«166095_j49727131353410_2_alg».proof.Proof.Gen.ReferenceIdeal.Read
import proofs.«166095_j49727131353410_2_alg».proof.Proof.Spec

noncomputable section

namespace Cert.Rotation.Ref

open Idealize.ShloMosaic Idealize.ShloMosaic.ValueIdx Cert.ReferenceIdeal Cert.ReferenceIdeal.Read
open scoped BigOperators

/-- The left operand's index at output (r, c) and contraction position k is (r, k). -/
theorem lidx_eq (i : S8192x4096.Idx) (k : Fin 4096) : lidx_main_v1 i k = ix2 (i 0) k :=
  funext fun a => Fin.ext (by match a with | ⟨0, _⟩ => rfl | ⟨1, _⟩ => rfl)

/-- The right operand's index there is (k, c). -/
theorem ridx_eq (i : S8192x4096.Idx) (k : Fin 4096) : ridx_main_v1 i k = ix2 k (i 1) :=
  funext fun a => Fin.ext (by match a with | ⟨0, _⟩ => rfl | ⟨1, _⟩ => rfl)

/-- The reference's last stage, as a function of the three argument arrays, is the specification. -/
theorem stage_eq (x : (⟨S8192x4096, .f32⟩ : BufTy).Contents (Elt Ideal)) (w p : (⟨S4096x4096, .f32⟩ : BufTy).Contents (Elt Ideal)) :
    val_main_v1 (F := Ideal) x w p = Cert.Rotation.rotated x w p := by
  funext i
  rw [val_main_v1_apply]
  show _ = ∑ k : Fin 4096, Cert.Rotation.term x w p (i 0) (i 1) k
  refine Finset.sum_congr rfl fun k _ => ?_
  rw [val_main_v0_apply, lidx_eq, ridx_eq]
  rfl

end Cert.Rotation.Ref

end
-- ==== Proof.lean ====
/-
  The kernel multiplies the 8192 rows of x by the matrix w + p, block by block: the host first writes the entrywise sum
  w + p (narrowed to a 16-bit format), then an 8 × 8 grid computes, at point (bi, bj), the product of rows
  bi·1024 … bi·1024 + 1023 of x with columns bj·512 … bj·512 + 511 of the sum, the whole contraction in one product.
  The reference adds the matrices and takes one matrix product.  On the extended reals a change of float format is the
  identity and a product accumulated into zero is the plain sum over the contraction position, so both programs leave

      result[r, c] = ∑ₖ x[r, k] · (w[k, c] + p[k, c]),

  term for term the same sum (Proof/Spec.lean): no law of arithmetic is needed beyond reading both sides at an index,
  and the inputs' finiteness is not used.

  Proof/Payload.lean reads the body's product at an entry; Proof/Cover.lean is the arithmetic of the grid's blocks;
  Proof/KernelValue.lean puts the blocks together into the whole result array; Proof/RefValue.lean reads the reference's
  two operations.  Here the five claims are assembled: the three runs (each program terminates without a fault, its
  arguments unchanged), the idealization's ledger (empty), and the equality of the two results.
-/
import proofs.«166095_j49727131353410_2_alg».proof.Defs
import proofs.«166095_j49727131353410_2_alg».proof.Proof.Gen.Kernel
import proofs.«166095_j49727131353410_2_alg».proof.Proof.Gen.Kernel.Frame
import proofs.«166095_j49727131353410_2_alg».proof.Proof.Gen.KernelIdeal
import proofs.«166095_j49727131353410_2_alg».proof.Proof.Gen.KernelIdeal.Frame
import proofs.«166095_j49727131353410_2_alg».proof.Proof.Gen.KernelIdeal.Value
import proofs.«166095_j49727131353410_2_alg».proof.Proof.Gen.ReferenceIdeal
import proofs.«166095_j49727131353410_2_alg».proof.Proof.Gen.ReferenceIdeal.Run
import proofs.«166095_j49727131353410_2_alg».proof.Proof.Gen.ReferenceIdeal.Read
import proofs.«166095_j49727131353410_2_alg».proof.Proof.Gen.Pre_finite_inputs
import proofs.«166095_j49727131353410_2_alg».proof.Proof.KernelValue
import proofs.«166095_j49727131353410_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the three arguments, end with the result array at the specification of
    those arguments. -/
theorem algebraic : Cert.algebraic_KernelIdeal_ReferenceIdeal := by
  intro m ρ m' ρ' _ hagree
  refine ⟨_, Cert.Rotation.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v1_eq _ _ _).trans (Cert.Rotation.Ref.stage_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
